-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S100000x64 : Shape := ⟨2, ![100000, 64]⟩
abbrev S4000x128 : Shape := ⟨2, ![4000, 128]⟩
abbrev S4000x64 : Shape := ⟨2, ![4000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 49
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x64, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S1600000x1, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S1x64, .f32⟩
  | .hbm, ⟨29, _⟩ => ⟨S100000x64, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S1600000x1, .f32⟩
  | .hbm, ⟨41, _⟩ => ⟨S1600000x64, .f32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S1x64, .f32⟩
  | .hbm, ⟨48, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S1x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S64x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S1x64, .f32⟩
  | .local _ .vmem, ⟨18, _⟩ => ⟨S4000x64, .f32⟩
  | .local _ .vmem, ⟨19, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)

variable [Facts₀]

def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v33) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S4000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 57
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x64, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S1600000x1, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S1x64, .f32⟩
  | .hbm, ⟨29, _⟩ => ⟨S100000x64, .f32⟩
  | .hbm, ⟨30, _⟩ => ⟨S100000x64, .f32⟩
  | .hbm, ⟨31, _⟩ => ⟨S_, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S1600000x1, .f32⟩
  | .hbm, ⟨45, _⟩ => ⟨S1600000x64, .f32⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_cst : Ref sig .tc := ⟨.hbm, 54, rfl⟩
abbrev main_call1_v0 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The kernel program's run, with its result named.

  @main is four tiled regions among three stretches of host operations. The contents of the core's buffers at each
  boundary form a fold from the launch memory: a stretch of host operations applies its operations' functions, a
  region leaves its arrays at what its write-backs leave and every other buffer as it found it. Every weakly fair
  execution from a memory with zero counters terminates without a fault in a state whose buffers hold the last fold;
  read at the result buffer this names the result, and read at each argument it is the launch contents again.
-/
import proofs.«170517_j81965155877088_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last fold's
    contents and every argument array as launched. -/
theorem run : θ_run defs (onTc (τ := τ) (main (F := F))) ⟨m, fun _ => 0, ρ⟩ (fun r => ∀ c : Dev nD,
      r.2.mem ((c.tc : Thread nD τ).loc main_v35) = W7 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v35 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Whole

end
-- ==== Proof.Stages.lean ====
/-
  The two stages a graph-convolution layer applies around its edge aggregation, written index by index over the
  extended reals and over literal shapes, with no program in sight.

  * the dense stage: row `r` of the node features times the weight matrix,
      `(x · w)[r, c] = ∑ₖ x[r, k] · w[k, c]`
    (100000 rows; 128 contracted features in the first layer, 64 in the second);
  * the closing stage: the bias row added to every node's aggregate and the result clipped below at the real the zero
    word denotes, `max (a[r, c] + b[0, c]) 0`.

  Both programs compute exactly these two functions; they differ only in how they tile the rows and in how the bias
  vector is made a row.
-/
import Idealize.ShloMosaic.PureOps.Ideal
import Idealize.ShloMosaic.Lib.ValueIdx

noncomputable section

namespace Cert.Gcn

open Idealize.ShloMosaic Idealize.ShloMosaic.ValueIdx

/-- Node features `[100000, 128]` times weights `[128, 64]`: entry `(r, c)` is the sum over the 128 features `k` of
    `x[r, k] · w[k, c]`. -/
def dense128 (x : (⟨2, ![100000, 128]⟩ : Shape).Idx → EReal) (w : (⟨2, ![128, 64]⟩ : Shape).Idx → EReal) :
    (⟨2, ![100000, 64]⟩ : Shape).Idx → EReal :=
  fun i => ∑ k : Fin 128, x (ix2 (i 0 : Fin 100000) k) * w (ix2 k (i 1 : Fin 64))

/-- Node features `[100000, 64]` times weights `[64, 64]`: entry `(r, c)` is the sum over the 64 features `k` of
    `x[r, k] · w[k, c]`. -/
def dense64 (x : (⟨2, ![100000, 64]⟩ : Shape).Idx → EReal) (w : (⟨2, ![64, 64]⟩ : Shape).Idx → EReal) :
    (⟨2, ![100000, 64]⟩ : Shape).Idx → EReal :=
  fun i => ∑ k : Fin 64, x (ix2 (i 0 : Fin 100000) k) * w (ix2 k (i 1 : Fin 64))

/-- The bias row `[1, 64]` added to every row of the aggregate `[100000, 64]`, then the maximum with the real the f32
    zero word denotes: entry `(r, c)` is `max (a[r, c] + b[0, c]) 0`. -/
def biasRelu (a : (⟨2, ![100000, 64]⟩ : Shape).Idx → EReal) (b : (⟨2, ![1, 64]⟩ : Shape).Idx → EReal) :
    (⟨2, ![100000, 64]⟩ : Shape).Idx → EReal :=
  fun i => max (a i + b (ix2 (0 : Fin 1) (i 1 : Fin 64))) (Ideal.ofBits .f32 0x00000000#32)

end Cert.Gcn

end
-- ==== Proof.DenseFirst.lean ====
/-
  The first dense stage, as the first of the four tiled regions computes it.

  The region walks the 100000 node rows in 25 tiles of 4000. At tile `t` it holds rows `4000·t … 4000·t + 3999` of the
  node features and the whole weight matrix, multiplies them into a zero accumulator (the narrowing of both operands to
  a shorter float format is the identity on extended reals), and writes the 4000 × 64 product back to rows
  `4000·t …` of its result. So entry `(p, q)` of tile `t` is `∑ₖ x[4000·t + p, k] · w[k, q]`, the tiles are the
  restrictions of one function of the whole arrays, `Cert.Gcn.dense128`, and since the 25 tiles cover every row the
  result array ends holding that function — whatever the region found in its buffers on entry (`V`).
-/
import proofs.«170517_j81965155877088_1_alg».proof.Proof.Gen.KernelIdeal.Frame
import proofs.«170517_j81965155877088_1_alg».proof.Proof.Stages
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.DenseFirst

open Cert.KernelIdeal Cert.KernelIdeal.Gen Cert.Gcn

theorem hz : (![0, 0] : Fin 2 → Nat) = fun _ => 0 := funext fun a => by fin_cases a <;> rfl

/-- Row coordinate of the left operand's index: the output's row. -/
theorem lhs_row (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl

/-- Column coordinate of the right operand's index: the output's column. -/
theorem rhs_col (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- One tile's product at entry `(p, q)`: the sum over the 128 features of the tile's row `p` against column `q` of the
    weights. -/
theorem tile_apply (x0 : FVec Ideal S4000x128 .f32) (x1 : FVec Ideal S128x64 .f32) (p : Fin 4000) (q : Fin 64) :
    k0_pay1 x0 x1 (ix2 p q) = ∑ k : Fin 128, x0 (ix2 p k) * x1 (ix2 k q) := by
  unfold k0_pay1
  refine (Ideal.matmul_constant_zero_apply dot_S4000x128_S128x64_S4000x64_1_0_0_1_n_n none _ _ (ix2 p q)).trans ?_
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun a => Fin.ext (by
    match a with
    | ⟨0, _⟩ => exact lhs_row _ _
    | ⟨1, _⟩ => exact (dot_S4000x128_S128x64_S4000x64_1_0_0_1_n_n.lhsIdx_val_of_single rfl _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun a => Fin.ext (by
    match a with
    | ⟨0, _⟩ => exact (dot_S4000x128_S128x64_S4000x64_1_0_0_1_n_n.rhsIdx_val_of_single rfl _ _).trans hk
    | ⟨1, _⟩ => exact rhs_col _ _)
  rw [truncf_apply, truncf_apply, el, er]

variable (V : (c : Dev nD) → (b : Ref sig .tc) → Buf (Elt Ideal) ((c : Thread nD τ).loc b))

/-- The printed index maps over the 25 tiles: the feature tile and the result tile sit at block row `t`, block
    column 0; the weights at block (0, 0) at every tile. -/
theorem tile_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What tile `t` writes back is tile `t` of the dense stage of the arrays the region found. -/
theorem written_back (c : Dev nD) (t : Fin cfg0.N) :
    (dat0 V c).flushed 2 t = ((cfg0.win 2).blk t).view.read (Elt Ideal) (dense128 (V c main_arg0) (V c main_arg3)) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x64) hz]
  obtain ⟨e0, e1, e2, e3, e4, e5⟩ := tile_index t
  funext j
  obtain ⟨p, q, rfl⟩ : ∃ (p : Fin 4000) (q : Fin 64), j = ix2 p q := ⟨j 0, j 1, eq_ix2 j⟩
  show k0_pay1 (iblk0 V c 0 t) (iblk0 V c 1 t) (ix2 p q)
    = dense128 (V c main_arg0) (V c main_arg3) (((cfg0.win 2).blk t).view.emb (ix2 p q))
  refine (tile_apply _ _ p q).trans ?_
  unfold dense128
  refine Finset.sum_congr rfl fun k _ => ?_
  have h0 : ((cfg0.win 0).blk t).view.emb (ix2 p k) = ix2 ((((cfg0.win 2).blk t).view.emb (ix2 p q)) 0 : Fin 100000) k := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1 : Fin 64) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  refine congrArg₂ (fun a b : EReal => a * b) ?_ ?_
  · show V c main_arg0 (((cfg0.win 0).blk t).view.emb (ix2 p k)) = V c main_arg0 (ix2 ((((cfg0.win 2).blk t).view.emb (ix2 p q)) 0 : Fin 100000) k)
    rw [h0]; rfl
  · show V c main_arg3 (((cfg0.win 1).blk t).view.emb (ix2 k q)) = V c main_arg3 (ix2 k ((((cfg0.win 2).blk t).view.emb (ix2 p q)) 1 : Fin 64))
    rw [h1]; rfl

/-- An index of the result array lies in tile `t` iff each coordinate lies in the tile's range on its axis. -/
theorem mem_tile (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v4).slice (win0_2.rect t)).set ↔ _
  rw [View.set_slice_whole, Rect.mem_set_unit]
  exact Iff.rfl

/-- Every entry of the result lies in a tile that is written back: row `r` in tile `r / 4000`. -/
theorem tiles_cover (i : S100000x64.Idx) :
    ∃ t : Fin cfg0.N, (cfg0.win 2).flush t = true ∧ i ∈ ((cfg0.win 2).blk t).view.set := by
  have hN : cfg0.N = 25 := N_0
  have hi0 : (i 0).val < 100000 := (i 0).isLt
  have hi1 : (i 1).val < 64 := (i 1).isLt
  let t : Fin cfg0.N := ⟨(i 0).val / 4000, by rw [hN]; omega⟩
  obtain ⟨-, -, -, -, e4, e5⟩ := tile_index t
  have e4' : win0_2.index t (0 : Fin 2) = (i 0).val / 4000 := e4
  refine ⟨t, flush0_2 t, ?_⟩
  rw [mem_tile]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- The result array after the region: the dense stage of the node features and weights the region found. -/
theorem result (c : Dev nD) :
    (dat0 V c).arrAt 2 cfg0.N = dense128 (V c main_arg0) (V c main_arg3) :=
  (dat0 V c).arrAt_eq_of_cover 2 (dense128 (V c main_arg0) (V c main_arg3)) (fun t _ => written_back V c t) tiles_cover

end Cert.KernelIdeal.DenseFirst

end
-- ==== Proof.CloseFirst.lean ====
/-
  The first closing stage, as a tiled region computes it.

  The region walks the 100000 node rows in 25 tiles of 4000. At tile `t` it holds rows `4000·t … 4000·t + 3999` of the
  aggregate and the one bias row, adds the bias row to every row of the tile (the row is broadcast down the tile; the
  two casts in the body are casts of a shape to itself), takes the maximum with the real the zero word denotes, and
  writes the tile back to the same rows of its result. So entry `(p, q)` of tile `t` is
  `max (a[4000·t + p, q] + b[0, q]) 0`: the tiles are the restrictions of one function of the whole arrays,
  `Cert.Gcn.biasRelu`, and since the 25 tiles cover every row the result array ends holding that function — whatever
  the region found in its buffers on entry (`V`).
-/
import proofs.«170517_j81965155877088_1_alg».proof.Proof.Gen.KernelIdeal.Frame
import proofs.«170517_j81965155877088_1_alg».proof.Proof.Stages
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.CloseFirst

open Cert.KernelIdeal Cert.KernelIdeal.Gen Cert.Gcn

theorem hz : (![0, 0] : Fin 2 → Nat) = fun _ => 0 := funext fun a => by fin_cases a <;> rfl

/-- One tile at entry `(p, q)`: the aggregate's entry plus the bias row's entry `q`, clipped below at zero. -/
theorem tile_apply (x0 : FVec Ideal S4000x64 .f32) (x1 : FVec Ideal S1x64 .f32) (p : Fin 4000) (q : Fin 64) :
    k1_pay1 x0 x1 (ix2 p q) = max (x0 (ix2 p q) + x1 (ix2 (0 : Fin 1) q)) (Ideal.ofBits .f32 0x00000000#32) := by
  unfold k1_pay1
  show max (shapeCast S4000x64 x0 shapeCasts_S4000x64_S4000x64 (ix2 p q)
      + broadcastTo S4000x64 (shapeCast S1x64 x1 shapeCasts_S1x64_S1x64) broadcasts_S1x64_S4000x64 (ix2 p q))
    (Ideal.ofBits .f32 0x00000000#32) = _
  rw [shapeCast_self, shapeCast_self, broadcastTo_1b_ab_apply]

variable (V : (c : Dev nD) → (b : Ref sig .tc) → Buf (Elt Ideal) ((c : Thread nD τ).loc b))

/-- The printed index maps over the 25 tiles: the aggregate's tile and the result's tile sit at block row `t`, block
    column 0; the bias row at block (0, 0) at every tile. -/
theorem tile_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What tile `t` writes back is tile `t` of the closing stage of the arrays the region found. -/
theorem written_back (c : Dev nD) (t : Fin cfg1.N) :
    (dat1 V c).flushed 2 t = ((cfg1.win 2).blk t).view.read (Elt Ideal) (biasRelu (V c main_v17) (V c main_v18)) := by
  show (cfg1.win 2).cut (grid1.coords t) ((dat1 V c).after 2 t) = _
  rw [after1_2]
  unfold out1_2
  rw [View.canon_unit_zero hz]
  simp only [View.ld_unit_zero (S := S4000x64) hz, View.ld_unit_zero (S := S1x64) hz]
  obtain ⟨e0, e1, e2, e3, e4, e5⟩ := tile_index t
  funext j
  obtain ⟨p, q, rfl⟩ : ∃ (p : Fin 4000) (q : Fin 64), j = ix2 p q := ⟨j 0, j 1, eq_ix2 j⟩
  show k1_pay1 (iblk1 V c 0 t) (iblk1 V c 1 t) (ix2 p q)
    = biasRelu (V c main_v17) (V c main_v18) (((cfg1.win 2).blk t).view.emb (ix2 p q))
  refine (tile_apply _ _ p q).trans ?_
  unfold biasRelu
  have h0 : ((cfg1.win 0).blk t).view.emb (ix2 p q) = ((cfg1.win 2).blk t).view.emb (ix2 p q) := by
    funext a; apply Fin.ext
    match a with
    | ⟨0, _⟩ => show win1_0.index t (0 : Fin 2) * 4000 + 1 * p.val = win1_2.index t (0 : Fin 2) * 4000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q) = ix2 (0 : Fin 1) ((((cfg1.win 2).blk t).view.emb (ix2 p q)) 1 : Fin 64) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  refine congrArg₂ (fun a b : EReal => max (a + b) (Ideal.ofBits .f32 0x00000000#32)) ?_ ?_
  · show V c main_v17 (((cfg1.win 0).blk t).view.emb (ix2 p q)) = V c main_v17 (((cfg1.win 2).blk t).view.emb (ix2 p q))
    rw [h0]
  · show V c main_v18 (((cfg1.win 1).blk t).view.emb (ix2 (0 : Fin 1) q)) = V c main_v18 (ix2 (0 : Fin 1) ((((cfg1.win 2).blk t).view.emb (ix2 p q)) 1 : Fin 64))
    rw [h1]; rfl

/-- An index of the result array lies in tile `t` iff each coordinate lies in the tile's range on its axis. -/
theorem mem_tile (t : Fin cfg1.N) (i : S100000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v19).slice (win1_2.rect t)).set ↔ _
  rw [View.set_slice_whole, Rect.mem_set_unit]
  exact Iff.rfl

/-- Every entry of the result lies in a tile that is written back: row `r` in tile `r / 4000`. -/
theorem tiles_cover (i : S100000x64.Idx) :
    ∃ t : Fin cfg1.N, (cfg1.win 2).flush t = true ∧ i ∈ ((cfg1.win 2).blk t).view.set := by
  have hN : cfg1.N = 25 := N_1
  have hi0 : (i 0).val < 100000 := (i 0).isLt
  have hi1 : (i 1).val < 64 := (i 1).isLt
  let t : Fin cfg1.N := ⟨(i 0).val / 4000, by rw [hN]; omega⟩
  obtain ⟨-, -, -, -, e4, e5⟩ := tile_index t
  have e4' : win1_2.index t (0 : Fin 2) = (i 0).val / 4000 := e4
  refine ⟨t, flush1_2 t, ?_⟩
  rw [mem_tile]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 64 ≤ (i 1).val ∧ (i 1).val < win1_2.index t (1 : Fin 2) * 64 + 64; omega

/-- The result array after the region: the closing stage of the aggregate and bias row the region found. -/
theorem result (c : Dev nD) :
    (dat1 V c).arrAt 2 cfg1.N = biasRelu (V c main_v17) (V c main_v18) :=
  (dat1 V c).arrAt_eq_of_cover 2 (biasRelu (V c main_v17) (V c main_v18)) (fun t _ => written_back V c t) tiles_cover

end Cert.KernelIdeal.CloseFirst

end
-- ==== Proof.DenseSecond.lean ====
/-
  The second dense stage, as the third of the four tiled regions computes it.

  The region walks the 100000 node rows in 25 tiles of 4000. At tile `t` it holds rows `4000·t … 4000·t + 3999` of the
  first layer's output and the whole second weight matrix, multiplies them into a zero accumulator (a cast of the
  tile's shape to itself and the narrowing of both operands to a shorter float format are the identity on extended
  reals), and writes the 4000 × 64 product back to rows `4000·t …` of its result. So entry `(p, q)` of tile `t` is
  `∑ₖ x[4000·t + p, k] · w[k, q]` over the 64 features, the tiles are the restrictions of one function of the whole
  arrays, `Cert.Gcn.dense64`, and since the 25 tiles cover every row the result array ends holding that function —
  whatever the region found in its buffers on entry (`V`).
-/
import proofs.«170517_j81965155877088_1_alg».proof.Proof.Gen.KernelIdeal.Frame
import proofs.«170517_j81965155877088_1_alg».proof.Proof.Stages
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.DenseSecond

open Cert.KernelIdeal Cert.KernelIdeal.Gen Cert.Gcn

theorem hz : (![0, 0] : Fin 2 → Nat) = fun _ => 0 := funext fun a => by fin_cases a <;> rfl

/-- Row coordinate of the left operand's index: the output's row. -/
theorem lhs_row (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl

/-- Column coordinate of the right operand's index: the output's column. -/
theorem rhs_col (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- One tile's product at entry `(p, q)`: the sum over the 64 features of the tile's row `p` against column `q` of the
    weights. -/
theorem tile_apply (x0 : FVec Ideal S4000x64 .f32) (x1 : FVec Ideal S64x64 .f32) (p : Fin 4000) (q : Fin 64) :
    k2_pay1 x0 x1 (ix2 p q) = ∑ k : Fin 64, x0 (ix2 p k) * x1 (ix2 k q) := by
  unfold k2_pay1
  refine (Ideal.matmul_constant_zero_apply dot_S4000x64_S64x64_S4000x64_1_0_0_1_n_n none _ _ (ix2 p q)).trans ?_
  rw [← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k := funext fun a => Fin.ext (by
    match a with
    | ⟨0, _⟩ => exact lhs_row _ _
    | ⟨1, _⟩ => exact (dot_S4000x64_S64x64_S4000x64_1_0_0_1_n_n.lhsIdx_val_of_single rfl _ _).trans hk)
  have er : dot_S4000x64_S64x64_S4000x64_1_0_0_1_n_n.rhsIdx (ix2 p q) ((contrEquiv1 dot_S4000x64_S64x64_S4000x64_1_0_0_1_n_n 64 rfl rfl).symm k) = ix2 k q := funext fun a => Fin.ext (by
    match a with
    | ⟨0, _⟩ => exact (dot_S4000x64_S64x64_S4000x64_1_0_0_1_n_n.rhsIdx_val_of_single rfl _ _).trans hk
    | ⟨1, _⟩ => exact rhs_col _ _)
  rw [truncf_apply, truncf_apply, el, er, shapeCast_self]

variable (V : (c : Dev nD) → (b : Ref sig .tc) → Buf (Elt Ideal) ((c : Thread nD τ).loc b))

/-- The printed index maps over the 25 tiles: the feature tile and the result tile sit at block row `t`, block
    column 0; the weights at block (0, 0) at every tile. -/
theorem tile_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What tile `t` writes back is tile `t` of the dense stage of the arrays the region found. -/
theorem written_back (c : Dev nD) (t : Fin cfg2.N) :
    (dat2 V c).flushed 2 t = ((cfg2.win 2).blk t).view.read (Elt Ideal) (dense64 (V c main_v19) (V c main_arg5)) := by
  show (cfg2.win 2).cut (grid2.coords t) ((dat2 V c).after 2 t) = _
  rw [after2_2]
  unfold out2_2
  rw [View.canon_unit_zero hz]
  simp only [View.ld_unit_zero (S := S4000x64) hz, View.ld_unit_zero (S := S64x64) hz]
  obtain ⟨e0, e1, e2, e3, e4, e5⟩ := tile_index t
  funext j
  obtain ⟨p, q, rfl⟩ : ∃ (p : Fin 4000) (q : Fin 64), j = ix2 p q := ⟨j 0, j 1, eq_ix2 j⟩
  show k2_pay1 (iblk2 V c 0 t) (iblk2 V c 1 t) (ix2 p q)
    = dense64 (V c main_v19) (V c main_arg5) (((cfg2.win 2).blk t).view.emb (ix2 p q))
  refine (tile_apply _ _ p q).trans ?_
  unfold dense64
  refine Finset.sum_congr rfl fun k _ => ?_
  have h0 : ((cfg2.win 0).blk t).view.emb (ix2 p k) = ix2 ((((cfg2.win 2).blk t).view.emb (ix2 p q)) 0 : Fin 100000) k := by
    funext a; apply Fin.ext
    match a with
    | ⟨0, _⟩ => show win2_0.index t (0 : Fin 2) * 4000 + 1 * p.val = win2_2.index t (0 : Fin 2) * 4000 + 1 * p.val; omega
    | ⟨1, _⟩ => show win2_0.index t (1 : Fin 2) * 64 + 1 * k.val = k.val; omega
  have h1 : ((cfg2.win 1).blk t).view.emb (ix2 k q) = ix2 k ((((cfg2.win 2).blk t).view.emb (ix2 p q)) 1 : Fin 64) := by
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  refine congrArg₂ (fun a b : EReal => a * b) ?_ ?_
  · show V c main_v19 (((cfg2.win 0).blk t).view.emb (ix2 p k)) = V c main_v19 (ix2 ((((cfg2.win 2).blk t).view.emb (ix2 p q)) 0 : Fin 100000) k)
    rw [h0]; rfl
  · show V c main_arg5 (((cfg2.win 1).blk t).view.emb (ix2 k q)) = V c main_arg5 (ix2 k ((((cfg2.win 2).blk t).view.emb (ix2 p q)) 1 : Fin 64))
    rw [h1]; rfl

/-- An index of the result array lies in tile `t` iff each coordinate lies in the tile's range on its axis. -/
theorem mem_tile (t : Fin cfg2.N) (i : S100000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v20).slice (win2_2.rect t)).set ↔ _
  rw [View.set_slice_whole, Rect.mem_set_unit]
  exact Iff.rfl

/-- Every entry of the result lies in a tile that is written back: row `r` in tile `r / 4000`. -/
theorem tiles_cover (i : S100000x64.Idx) :
    ∃ t : Fin cfg2.N, (cfg2.win 2).flush t = true ∧ i ∈ ((cfg2.win 2).blk t).view.set := by
  have hN : cfg2.N = 25 := N_2
  have hi0 : (i 0).val < 100000 := (i 0).isLt
  have hi1 : (i 1).val < 64 := (i 1).isLt
  let t : Fin cfg2.N := ⟨(i 0).val / 4000, by rw [hN]; omega⟩
  obtain ⟨-, -, -, -, e4, e5⟩ := tile_index t
  have e4' : win2_2.index t (0 : Fin 2) = (i 0).val / 4000 := e4
  refine ⟨t, flush2_2 t, ?_⟩
  rw [mem_tile]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 64 ≤ (i 1).val ∧ (i 1).val < win2_2.index t (1 : Fin 2) * 64 + 64; omega

/-- The result array after the region: the dense stage of the node features and weights the region found. -/
theorem result (c : Dev nD) :
    (dat2 V c).arrAt 2 cfg2.N = dense64 (V c main_v19) (V c main_arg5) :=
  (dat2 V c).arrAt_eq_of_cover 2 (dense64 (V c main_v19) (V c main_arg5)) (fun t _ => written_back V c t) tiles_cover

end Cert.KernelIdeal.DenseSecond

end
-- ==== Proof.CloseSecond.lean ====
/-
  The second closing stage, as a tiled region computes it.

  The region walks the 100000 node rows in 25 tiles of 4000. At tile `t` it holds rows `4000·t … 4000·t + 3999` of the
  aggregate and the one bias row, adds the bias row to every row of the tile (the row is broadcast down the tile; the
  two casts in the body are casts of a shape to itself), takes the maximum with the real the zero word denotes, and
  writes the tile back to the same rows of its result. So entry `(p, q)` of tile `t` is
  `max (a[4000·t + p, q] + b[0, q]) 0`: the tiles are the restrictions of one function of the whole arrays,
  `Cert.Gcn.biasRelu`, and since the 25 tiles cover every row the result array ends holding that function — whatever
  the region found in its buffers on entry (`V`).
-/
import proofs.«170517_j81965155877088_1_alg».proof.Proof.Gen.KernelIdeal.Frame
import proofs.«170517_j81965155877088_1_alg».proof.Proof.Stages
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.CloseSecond

open Cert.KernelIdeal Cert.KernelIdeal.Gen Cert.Gcn

theorem hz : (![0, 0] : Fin 2 → Nat) = fun _ => 0 := funext fun a => by fin_cases a <;> rfl

/-- One tile at entry `(p, q)`: the aggregate's entry plus the bias row's entry `q`, clipped below at zero. -/
theorem tile_apply (x0 : FVec Ideal S4000x64 .f32) (x1 : FVec Ideal S1x64 .f32) (p : Fin 4000) (q : Fin 64) :
    k3_pay1 x0 x1 (ix2 p q) = max (x0 (ix2 p q) + x1 (ix2 (0 : Fin 1) q)) (Ideal.ofBits .f32 0x00000000#32) := by
  unfold k3_pay1
  show max (shapeCast S4000x64 x0 shapeCasts_S4000x64_S4000x64 (ix2 p q)
      + broadcastTo S4000x64 (shapeCast S1x64 x1 shapeCasts_S1x64_S1x64) broadcasts_S1x64_S4000x64 (ix2 p q))
    (Ideal.ofBits .f32 0x00000000#32) = _
  rw [shapeCast_self, shapeCast_self, broadcastTo_1b_ab_apply]

variable (V : (c : Dev nD) → (b : Ref sig .tc) → Buf (Elt Ideal) ((c : Thread nD τ).loc b))

/-- The printed index maps over the 25 tiles: the aggregate's tile and the result's tile sit at block row `t`, block
    column 0; the bias row at block (0, 0) at every tile. -/
theorem tile_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What tile `t` writes back is tile `t` of the closing stage of the arrays the region found. -/
theorem written_back (c : Dev nD) (t : Fin cfg3.N) :
    (dat3 V c).flushed 2 t = ((cfg3.win 2).blk t).view.read (Elt Ideal) (biasRelu (V c main_v33) (V c main_v34)) := by
  show (cfg3.win 2).cut (grid3.coords t) ((dat3 V c).after 2 t) = _
  rw [after3_2]
  unfold out3_2
  rw [View.canon_unit_zero hz]
  simp only [View.ld_unit_zero (S := S4000x64) hz, View.ld_unit_zero (S := S1x64) hz]
  obtain ⟨e0, e1, e2, e3, e4, e5⟩ := tile_index t
  funext j
  obtain ⟨p, q, rfl⟩ : ∃ (p : Fin 4000) (q : Fin 64), j = ix2 p q := ⟨j 0, j 1, eq_ix2 j⟩
  show k3_pay1 (iblk3 V c 0 t) (iblk3 V c 1 t) (ix2 p q)
    = biasRelu (V c main_v33) (V c main_v34) (((cfg3.win 2).blk t).view.emb (ix2 p q))
  refine (tile_apply _ _ p q).trans ?_
  unfold biasRelu
  have h0 : ((cfg3.win 0).blk t).view.emb (ix2 p q) = ((cfg3.win 2).blk t).view.emb (ix2 p q) := by
    funext a; apply Fin.ext
    match a with
    | ⟨0, _⟩ => show win3_0.index t (0 : Fin 2) * 4000 + 1 * p.val = win3_2.index t (0 : Fin 2) * 4000 + 1 * p.val; omega
    | ⟨1, _⟩ => show win3_0.index t (1 : Fin 2) * 64 + 1 * q.val = win3_2.index t (1 : Fin 2) * 64 + 1 * q.val; omega
  have h1 : ((cfg3.win 1).blk t).view.emb (ix2 (0 : Fin 1) q) = ix2 (0 : Fin 1) ((((cfg3.win 2).blk t).view.emb (ix2 p q)) 1 : Fin 64) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  refine congrArg₂ (fun a b : EReal => max (a + b) (Ideal.ofBits .f32 0x00000000#32)) ?_ ?_
  · show V c main_v33 (((cfg3.win 0).blk t).view.emb (ix2 p q)) = V c main_v33 (((cfg3.win 2).blk t).view.emb (ix2 p q))
    rw [h0]
  · show V c main_v34 (((cfg3.win 1).blk t).view.emb (ix2 (0 : Fin 1) q)) = V c main_v34 (ix2 (0 : Fin 1) ((((cfg3.win 2).blk t).view.emb (ix2 p q)) 1 : Fin 64))
    rw [h1]; rfl

/-- An index of the result array lies in tile `t` iff each coordinate lies in the tile's range on its axis. -/
theorem mem_tile (t : Fin cfg3.N) (i : S100000x64.Idx) :
    i ∈ ((cfg3.win 2).blk t).view.set ↔ ∀ a : Fin 2, win3_2.index t a * S4000x64.size a ≤ (i a).val ∧ (i a).val < win3_2.index t a * S4000x64.size a + S4000x64.size a := by
  show i ∈ ((View.whole main_v35).slice (win3_2.rect t)).set ↔ _
  rw [View.set_slice_whole, Rect.mem_set_unit]
  exact Iff.rfl

/-- Every entry of the result lies in a tile that is written back: row `r` in tile `r / 4000`. -/
theorem tiles_cover (i : S100000x64.Idx) :
    ∃ t : Fin cfg3.N, (cfg3.win 2).flush t = true ∧ i ∈ ((cfg3.win 2).blk t).view.set := by
  have hN : cfg3.N = 25 := N_3
  have hi0 : (i 0).val < 100000 := (i 0).isLt
  have hi1 : (i 1).val < 64 := (i 1).isLt
  let t : Fin cfg3.N := ⟨(i 0).val / 4000, by rw [hN]; omega⟩
  obtain ⟨-, -, -, -, e4, e5⟩ := tile_index t
  have e4' : win3_2.index t (0 : Fin 2) = (i 0).val / 4000 := e4
  refine ⟨t, flush3_2 t, ?_⟩
  rw [mem_tile]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 64 ≤ (i 1).val ∧ (i 1).val < win3_2.index t (1 : Fin 2) * 64 + 64; omega

/-- The result array after the region: the closing stage of the aggregate and bias row the region found. -/
theorem result (c : Dev nD) :
    (dat3 V c).arrAt 2 cfg3.N = biasRelu (V c main_v33) (V c main_v34) :=
  (dat3 V c).arrAt_eq_of_cover 2 (biasRelu (V c main_v33) (V c main_v34)) (fun t _ => written_back V c t) tiles_cover

end Cert.KernelIdeal.CloseSecond

end
-- ==== Proof.KernelFold.lean ====
/-
  The contents of the core's buffers at each boundary of @main, read back to the launch memory.

  @main: two slices of the edge list (sources, destinations); the first dense stage (tiled); the edge aggregation
  (sources wrapped when negative, rows gathered, scaled by the edge weights, scatter-added by destination into zeros)
  and the first bias made a row; the first closing stage (tiled); the second dense stage (tiled); the same aggregation
  and the second bias made a row; the second closing stage (tiled). A host stretch writes only its own results and a
  region only its output array, so each buffer a stage reads still holds what an earlier stage left there, and the
  result is the composition of the stages' functions of the launch contents (`result`). The aggregation is carried
  as one function, `aggregate`, and never opened.
-/
import proofs.«170517_j81965155877088_1_alg».proof.Proof.DenseFirst
import proofs.«170517_j81965155877088_1_alg».proof.Proof.CloseFirst
import proofs.«170517_j81965155877088_1_alg».proof.Proof.DenseSecond
import proofs.«170517_j81965155877088_1_alg».proof.Proof.CloseSecond
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.Gcn

/-- The edges' sources: row 0 of the edge list, as a vector. -/
def srcOf (e : IVec S2x1600000 32) : IVec S1600000 32 :=
  shapeCast S1600000 (extractStridedSlice S1x1600000 ![0, 0] e slices_S2x1600000_S1x1600000_0_0) shapeCasts_S1x1600000_S1600000

/-- The edges' destinations: row 1 of the edge list, as a vector. -/
def dstOf (e : IVec S2x1600000 32) : IVec S1600000 32 :=
  shapeCast S1600000 (extractStridedSlice S1x1600000 ![1, 0] e slices_S2x1600000_S1x1600000_1_0) shapeCasts_S1x1600000_S1600000

/-- The edge aggregation: a negative source wraps by 100000; row `src` of `h` is gathered for each edge and scaled by the
    edge's weight; the scaled rows are scatter-added by destination into an array of zeros. -/
def aggregate (h : FVec Ideal S100000x64 .f32) (src dst : IVec S1600000 32) (mask : FVec Ideal S1600000 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (mulf (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1 (broadcastInDim S1600000x1 ![0] bcast_S1600000_S1600000x1_0 mask)))

variable (m : (ℓ : Loc nD τ sig) → Buf (Elt Ideal) ℓ) (ρ : Dev nD → PrngReg) (c : Dev nD)

/-! ## After the two slices (the first region's entry) -/

theorem at1_main_arg0 : W1 m ρ c (Proc.devRef .tc main_arg0) = m ((c : Thread nD τ).loc main_arg0) := by
  show StableHlo.after hostOps0 (W0 m ρ c) (Proc.devRef .tc main_arg0) = _
  dsimp only [hostOps0]; after_results_simp <;> rfl
theorem at1_main_arg2 : W1 m ρ c (Proc.devRef .tc main_arg2) = m ((c : Thread nD τ).loc main_arg2) := by
  show StableHlo.after hostOps0 (W0 m ρ c) (Proc.devRef .tc main_arg2) = _
  dsimp only [hostOps0]; after_results_simp <;> rfl
theorem at1_main_arg3 : W1 m ρ c (Proc.devRef .tc main_arg3) = m ((c : Thread nD τ).loc main_arg3) := by
  show StableHlo.after hostOps0 (W0 m ρ c) (Proc.devRef .tc main_arg3) = _
  dsimp only [hostOps0]; after_results_simp <;> rfl
theorem at1_main_arg4 : W1 m ρ c (Proc.devRef .tc main_arg4) = m ((c : Thread nD τ).loc main_arg4) := by
  show StableHlo.after hostOps0 (W0 m ρ c) (Proc.devRef .tc main_arg4) = _
  dsimp only [hostOps0]; after_results_simp <;> rfl
theorem at1_main_arg5 : W1 m ρ c (Proc.devRef .tc main_arg5) = m ((c : Thread nD τ).loc main_arg5) := by
  show StableHlo.after hostOps0 (W0 m ρ c) (Proc.devRef .tc main_arg5) = _
  dsimp only [hostOps0]; after_results_simp <;> rfl
theorem at1_main_arg6 : W1 m ρ c (Proc.devRef .tc main_arg6) = m ((c : Thread nD τ).loc main_arg6) := by
  show StableHlo.after hostOps0 (W0 m ρ c) (Proc.devRef .tc main_arg6) = _
  dsimp only [hostOps0]; after_results_simp <;> rfl
theorem at1_src : W1 m ρ c (Proc.devRef .tc main_v1) = srcOf (m ((c : Thread nD τ).loc main_arg1)) := by
  show StableHlo.after hostOps0 (W0 m ρ c) (Proc.devRef .tc main_v1) = _
  dsimp only [hostOps0]; after_results_simp <;> rfl
theorem at1_dst : W1 m ρ c (Proc.devRef .tc main_v3) = dstOf (m ((c : Thread nD τ).loc main_arg1)) := by
  show StableHlo.after hostOps0 (W0 m ρ c) (Proc.devRef .tc main_v3) = _
  dsimp only [hostOps0]; after_results_simp <;> rfl

/-! ## After the first dense stage -/

/-- The first region leaves the first dense stage of the launch's node features and first weights. -/
theorem at2_dense : W2 m ρ c (Proc.devRef .tc main_v4) = dense128 (m ((c : Thread nD τ).loc main_arg0)) (m ((c : Thread nD τ).loc main_arg3)) :=
  (W2_arr m ρ c 2).trans ((DenseFirst.result (V1 m ρ) c).trans (congrArg₂ dense128 (at1_main_arg0 m ρ c) (at1_main_arg3 m ρ c)))
theorem at2_src : W2 m ρ c (Proc.devRef .tc main_v1) = srcOf (m ((c : Thread nD τ).loc main_arg1)) := (W2_of_ne m ρ c main_v1 (by decide)).trans (at1_src m ρ c)
theorem at2_dst : W2 m ρ c (Proc.devRef .tc main_v3) = dstOf (m ((c : Thread nD τ).loc main_arg1)) := (W2_of_ne m ρ c main_v3 (by decide)).trans (at1_dst m ρ c)
theorem at2_main_arg2 : W2 m ρ c (Proc.devRef .tc main_arg2) = m ((c : Thread nD τ).loc main_arg2) := (W2_of_ne m ρ c main_arg2 (by decide)).trans (at1_main_arg2 m ρ c)
theorem at2_main_arg4 : W2 m ρ c (Proc.devRef .tc main_arg4) = m ((c : Thread nD τ).loc main_arg4) := (W2_of_ne m ρ c main_arg4 (by decide)).trans (at1_main_arg4 m ρ c)
theorem at2_main_arg5 : W2 m ρ c (Proc.devRef .tc main_arg5) = m ((c : Thread nD τ).loc main_arg5) := (W2_of_ne m ρ c main_arg5 (by decide)).trans (at1_main_arg5 m ρ c)
theorem at2_main_arg6 : W2 m ρ c (Proc.devRef .tc main_arg6) = m ((c : Thread nD τ).loc main_arg6) := (W2_of_ne m ρ c main_arg6 (by decide)).trans (at1_main_arg6 m ρ c)

/-! ## After the first aggregation (the second region's entry) -/

/-- The first aggregate: the aggregation of the first dense stage. -/
theorem at3_agg : W3 m ρ c (Proc.devRef .tc main_v17) = aggregate (dense128 (m ((c : Thread nD τ).loc main_arg0)) (m ((c : Thread nD τ).loc main_arg3))) (srcOf (m ((c : Thread nD τ).loc main_arg1))) (dstOf (m ((c : Thread nD τ).loc main_arg1))) (m ((c : Thread nD τ).loc main_arg2)) := by
  show StableHlo.after hostOps1 (W2 m ρ c) (Proc.devRef .tc main_v17) = _
  dsimp only [hostOps1]; after_results_simp
  rw [at2_dense, at2_src, at2_dst, at2_main_arg2]
  rfl
/-- The first bias, made a row. -/
theorem at3_row : W3 m ρ c (Proc.devRef .tc main_v18) = shapeCast S1x64 (m ((c : Thread nD τ).loc main_arg4)) shapeCasts_S64_S1x64 := by
  show StableHlo.after hostOps1 (W2 m ρ c) (Proc.devRef .tc main_v18) = _
  dsimp only [hostOps1]; after_results_simp
  rw [at2_main_arg4]
  rfl
theorem at3_src : W3 m ρ c (Proc.devRef .tc main_v1) = srcOf (m ((c : Thread nD τ).loc main_arg1)) := by
  show StableHlo.after hostOps1 (W2 m ρ c) (Proc.devRef .tc main_v1) = _
  dsimp only [hostOps1]; after_results_simp
  exact at2_src m ρ c
theorem at3_dst : W3 m ρ c (Proc.devRef .tc main_v3) = dstOf (m ((c : Thread nD τ).loc main_arg1)) := by
  show StableHlo.after hostOps1 (W2 m ρ c) (Proc.devRef .tc main_v3) = _
  dsimp only [hostOps1]; after_results_simp
  exact at2_dst m ρ c
theorem at3_main_arg2 : W3 m ρ c (Proc.devRef .tc main_arg2) = m ((c : Thread nD τ).loc main_arg2) := by
  show StableHlo.after hostOps1 (W2 m ρ c) (Proc.devRef .tc main_arg2) = _
  dsimp only [hostOps1]; after_results_simp
  exact at2_main_arg2 m ρ c
theorem at3_main_arg5 : W3 m ρ c (Proc.devRef .tc main_arg5) = m ((c : Thread nD τ).loc main_arg5) := by
  show StableHlo.after hostOps1 (W2 m ρ c) (Proc.devRef .tc main_arg5) = _
  dsimp only [hostOps1]; after_results_simp
  exact at2_main_arg5 m ρ c
theorem at3_main_arg6 : W3 m ρ c (Proc.devRef .tc main_arg6) = m ((c : Thread nD τ).loc main_arg6) := by
  show StableHlo.after hostOps1 (W2 m ρ c) (Proc.devRef .tc main_arg6) = _
  dsimp only [hostOps1]; after_results_simp
  exact at2_main_arg6 m ρ c

/-! ## After the first closing stage (the third region's entry) -/

/-- The first layer's output: the closing stage of the first aggregate and the first bias row. -/
theorem at4_layer : W4 m ρ c (Proc.devRef .tc main_v19) = biasRelu (aggregate (dense128 (m ((c : Thread nD τ).loc main_arg0)) (m ((c : Thread nD τ).loc main_arg3))) (srcOf (m ((c : Thread nD τ).loc main_arg1))) (dstOf (m ((c : Thread nD τ).loc main_arg1))) (m ((c : Thread nD τ).loc main_arg2))) (shapeCast S1x64 (m ((c : Thread nD τ).loc main_arg4)) shapeCasts_S64_S1x64) :=
  (W4_arr m ρ c 2).trans ((CloseFirst.result (V3 m ρ) c).trans (congrArg₂ biasRelu (at3_agg m ρ c) (at3_row m ρ c)))
theorem at4_src : W4 m ρ c (Proc.devRef .tc main_v1) = srcOf (m ((c : Thread nD τ).loc main_arg1)) := (W4_of_ne m ρ c main_v1 (by decide)).trans (at3_src m ρ c)
theorem at4_dst : W4 m ρ c (Proc.devRef .tc main_v3) = dstOf (m ((c : Thread nD τ).loc main_arg1)) := (W4_of_ne m ρ c main_v3 (by decide)).trans (at3_dst m ρ c)
theorem at4_main_arg2 : W4 m ρ c (Proc.devRef .tc main_arg2) = m ((c : Thread nD τ).loc main_arg2) := (W4_of_ne m ρ c main_arg2 (by decide)).trans (at3_main_arg2 m ρ c)
theorem at4_main_arg5 : W4 m ρ c (Proc.devRef .tc main_arg5) = m ((c : Thread nD τ).loc main_arg5) := (W4_of_ne m ρ c main_arg5 (by decide)).trans (at3_main_arg5 m ρ c)
theorem at4_main_arg6 : W4 m ρ c (Proc.devRef .tc main_arg6) = m ((c : Thread nD τ).loc main_arg6) := (W4_of_ne m ρ c main_arg6 (by decide)).trans (at3_main_arg6 m ρ c)

/-! ## After the second dense stage -/

/-- The third region leaves the second dense stage of the first layer's output and the second weights. -/
theorem at5_dense : W5 m ρ c (Proc.devRef .tc main_v20) = dense64 (biasRelu (aggregate (dense128 (m ((c : Thread nD τ).loc main_arg0)) (m ((c : Thread nD τ).loc main_arg3))) (srcOf (m ((c : Thread nD τ).loc main_arg1))) (dstOf (m ((c : Thread nD τ).loc main_arg1))) (m ((c : Thread nD τ).loc main_arg2))) (shapeCast S1x64 (m ((c : Thread nD τ).loc main_arg4)) shapeCasts_S64_S1x64)) (m ((c : Thread nD τ).loc main_arg5)) :=
  (W5_arr m ρ c 2).trans ((DenseSecond.result (V4 m ρ) c).trans (congrArg₂ dense64 (at4_layer m ρ c) (at4_main_arg5 m ρ c)))
theorem at5_src : W5 m ρ c (Proc.devRef .tc main_v1) = srcOf (m ((c : Thread nD τ).loc main_arg1)) := (W5_of_ne m ρ c main_v1 (by decide)).trans (at4_src m ρ c)
theorem at5_dst : W5 m ρ c (Proc.devRef .tc main_v3) = dstOf (m ((c : Thread nD τ).loc main_arg1)) := (W5_of_ne m ρ c main_v3 (by decide)).trans (at4_dst m ρ c)
theorem at5_main_arg2 : W5 m ρ c (Proc.devRef .tc main_arg2) = m ((c : Thread nD τ).loc main_arg2) := (W5_of_ne m ρ c main_arg2 (by decide)).trans (at4_main_arg2 m ρ c)
theorem at5_main_arg6 : W5 m ρ c (Proc.devRef .tc main_arg6) = m ((c : Thread nD τ).loc main_arg6) := (W5_of_ne m ρ c main_arg6 (by decide)).trans (at4_main_arg6 m ρ c)

/-! ## After the second aggregation (the fourth region's entry) -/

/-- The second aggregate: the aggregation of the second dense stage. -/
theorem at6_agg : W6 m ρ c (Proc.devRef .tc main_v33) = aggregate (dense64 (biasRelu (aggregate (dense128 (m ((c : Thread nD τ).loc main_arg0)) (m ((c : Thread nD τ).loc main_arg3))) (srcOf (m ((c : Thread nD τ).loc main_arg1))) (dstOf (m ((c : Thread nD τ).loc main_arg1))) (m ((c : Thread nD τ).loc main_arg2))) (shapeCast S1x64 (m ((c : Thread nD τ).loc main_arg4)) shapeCasts_S64_S1x64)) (m ((c : Thread nD τ).loc main_arg5))) (srcOf (m ((c : Thread nD τ).loc main_arg1))) (dstOf (m ((c : Thread nD τ).loc main_arg1))) (m ((c : Thread nD τ).loc main_arg2)) := by
  show StableHlo.after hostOps3 (W5 m ρ c) (Proc.devRef .tc main_v33) = _
  dsimp only [hostOps3]; after_results_simp
  rw [at5_dense, at5_src, at5_dst, at5_main_arg2]
  rfl
/-- The second bias, made a row. -/
theorem at6_row : W6 m ρ c (Proc.devRef .tc main_v34) = shapeCast S1x64 (m ((c : Thread nD τ).loc main_arg6)) shapeCasts_S64_S1x64 := by
  show StableHlo.after hostOps3 (W5 m ρ c) (Proc.devRef .tc main_v34) = _
  dsimp only [hostOps3]; after_results_simp
  rw [at5_main_arg6]
  rfl

/-! ## The result -/

/-- The result buffer after the last region: two graph-convolution layers of the launch contents. -/
theorem result : W7 m ρ c (Proc.devRef .tc main_v35) = biasRelu (aggregate (dense64 (biasRelu (aggregate (dense128 (m ((c : Thread nD τ).loc main_arg0)) (m ((c : Thread nD τ).loc main_arg3))) (srcOf (m ((c : Thread nD τ).loc main_arg1))) (dstOf (m ((c : Thread nD τ).loc main_arg1))) (m ((c : Thread nD τ).loc main_arg2))) (shapeCast S1x64 (m ((c : Thread nD τ).loc main_arg4)) shapeCasts_S64_S1x64)) (m ((c : Thread nD τ).loc main_arg5))) (srcOf (m ((c : Thread nD τ).loc main_arg1))) (dstOf (m ((c : Thread nD τ).loc main_arg1))) (m ((c : Thread nD τ).loc main_arg2))) (shapeCast S1x64 (m ((c : Thread nD τ).loc main_arg6)) shapeCasts_S64_S1x64) :=
  (W7_arr m ρ c 2).trans ((CloseSecond.result (V6 m ρ) c).trans (congrArg₂ biasRelu (at6_agg m ρ c) (at6_row m ρ c)))

end Cert.KernelIdeal.Fold

end
-- ==== Proof.RefStages.lean ====
/-
  The reference's stages are the same two functions.

  The reference computes each dense stage by one whole product of the node features with the weights — at an entry,
  the sum over the contracted feature of left row times right column, `Cert.Gcn.dense128` / `dense64` — and each closing
  stage by broadcasting the bias vector to a row, the row down the 100000 nodes, adding, and taking the maximum with a
  broadcast zero: at entry `(r, c)` that is `max (a[r, c] + b[c]) 0`, which is `Cert.Gcn.biasRelu` of the aggregate and of
  the bias vector cast to a `[1, 64]` row (a cast reads the same row-major position, so the row's entry `(0, c)` is `b[c]`).
-/
import proofs.«170517_j81965155877088_1_alg».proof.Proof.Gen.ReferenceIdeal.Read
import proofs.«170517_j81965155877088_1_alg».proof.Proof.Stages
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Stage

open Idealize.ShloMosaic Idealize.ShloMosaic.TcCoe Idealize.ShloMosaic.ValueIdx
open Cert.ReferenceIdeal Cert.ReferenceIdeal.Gen Cert.ReferenceIdeal.Read Cert.Gcn

/-- The first whole product is the first dense stage. -/
theorem dense_first (x : FVec Ideal S100000x128 .f32) (w : FVec Ideal S128x64 .f32) :
    Host.dotGeneral dot_S100000x128_S128x64_S100000x64_1_0_0_1_n_n none x w = dense128 x w := by
  funext i
  show FloatOps.dotGeneral dot_S100000x128_S128x64_S100000x64_1_0_0_1_n_n none .single x w i = _
  rw [Ideal.dotGeneral_apply, ← Equiv.sum_comp (contrEquiv1 dot_S100000x128_S128x64_S100000x64_1_0_0_1_n_n 128 rfl rfl).symm]
  unfold dense128
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx i ((contrEquiv1 dot_S100000x128_S128x64_S100000x64_1_0_0_1_n_n 128 rfl rfl).symm k) = ix2 (i 0 : Fin 100000) k := funext fun a => Fin.ext (by
    match a with
    | ⟨0, _⟩ => exact lhs_main_v4_0 _ _
    | ⟨1, _⟩ => exact (lhs_main_v4_1 _ _).trans hk)
  have er : dot_S100000x128_S128x64_S100000x64_1_0_0_1_n_n.rhsIdx i ((contrEquiv1 dot_S100000x128_S128x64_S100000x64_1_0_0_1_n_n 128 rfl rfl).symm k) = ix2 k (i 1 : Fin 64) := funext fun a => Fin.ext (by
    match a with
    | ⟨0, _⟩ => exact (rhs_main_v4_0 _ _).trans hk
    | ⟨1, _⟩ => exact rhs_main_v4_1 _ _)
  rw [el, er]
  rfl

/-- The second whole product is the second dense stage. -/
theorem dense_second (x : FVec Ideal S100000x64 .f32) (w : FVec Ideal S64x64 .f32) :
    Host.dotGeneral dot_S100000x64_S64x64_S100000x64_1_0_0_1_n_n none x w = dense64 x w := by
  funext i
  show FloatOps.dotGeneral dot_S100000x64_S64x64_S100000x64_1_0_0_1_n_n none .single x w i = _
  rw [Ideal.dotGeneral_apply, ← Equiv.sum_comp (contrEquiv1 dot_S100000x64_S64x64_S100000x64_1_0_0_1_n_n 64 rfl rfl).symm]
  unfold dense64
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx i ((contrEquiv1 dot_S100000x64_S64x64_S100000x64_1_0_0_1_n_n 64 rfl rfl).symm k) = ix2 (i 0 : Fin 100000) k := funext fun a => Fin.ext (by
    match a with
    | ⟨0, _⟩ => exact lhs_main_v22_0 _ _
    | ⟨1, _⟩ => exact (lhs_main_v22_1 _ _).trans hk)
  have er : dot_S100000x64_S64x64_S100000x64_1_0_0_1_n_n.rhsIdx i ((contrEquiv1 dot_S100000x64_S64x64_S100000x64_1_0_0_1_n_n 64 rfl rfl).symm k) = ix2 k (i 1 : Fin 64) := funext fun a => Fin.ext (by
    match a with
    | ⟨0, _⟩ => exact (rhs_main_v22_0 _ _).trans hk
    | ⟨1, _⟩ => exact rhs_main_v22_1 _ _)
  rw [el, er]
  rfl

/-- Bias broadcast, sum and maximum with the broadcast zero are the closing stage, the bias vector read as a row. -/
theorem close (a : FVec Ideal S100000x64 .f32) (b : FVec Ideal S64 .f32) (hc : S64.ShapeCasts S1x64) :
    maximumf (addf a (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
    = biasRelu a (shapeCast S1x64 b hc) := by
  funext i
  obtain ⟨r, q, rfl⟩ : ∃ (r : Fin 100000) (q : Fin 64), i = ix2 r q := ⟨i 0, i 1, eq_ix2 i⟩
  unfold biasRelu
  show max (a (ix2 r q) + val_main_v19 (F := Ideal) b (ix2 r q)) (val_main_call0_v0 (F := Ideal) (ix2 r q))
    = max (a (ix2 r q) + shapeCast S1x64 b hc (ix2 (0 : Fin 1) q)) (Ideal.ofBits .f32 0x00000000#32)
  have e : idx_main_v18 (idx_main_v19 (ix2 r q)) = ix1 q := funext fun d => by match d with | ⟨0, _⟩ => rfl
  rw [val_main_v19_apply, val_main_v18_apply, val_main_call0_v0_apply, val_main_call0_cst_apply, shapeCast_a_1a_apply, e]
  rfl

end Cert.ReferenceIdeal.Stage

end
-- ==== Proof.lean ====
/-
  Two graph-convolution layers computed tile by tile agree, over the extended reals, with the same two layers computed
  whole.

  A layer is: a dense stage (node features times a weight matrix), an edge aggregation (for each edge the source
  node's row, scaled by the edge's weight, added into the destination node's row of an array of zeros), and a closing
  stage (bias added to every row, then the maximum with zero). The tiled program computes the dense stage and the
  closing stage of each layer in 25 row tiles of 4000 nodes, narrowing the matrix product's operands to a shorter
  float format first, and leaves the aggregation to the same host operations the whole program uses; the whole program
  computes each stage by one array operation.

  Over the extended reals a change of float format is the identity and a matrix product into a zero accumulator is the
  plain sum over the contracted feature, so each tile is the restriction of the whole stage to its rows and the 25
  tiles cover all rows (`DenseFirst`, `CloseFirst`, `DenseSecond`, `CloseSecond`); the whole program's stages are the
  same functions (`RefStages`); nothing between the stages overwrites what a later stage reads (`KernelFold`); and the
  aggregation, identical on both sides, is never opened. No law of arithmetic beyond these identities is used, so the
  finiteness of the inputs is not needed for the values. The word-level program is claimed only to run and to leave its
  arguments unchanged, and the idealized one is its own text read over the extended reals.
-/
import proofs.«170517_j81965155877088_1_alg».proof.Defs
import proofs.«170517_j81965155877088_1_alg».proof.Proof.Gen.Kernel
import proofs.«170517_j81965155877088_1_alg».proof.Proof.Gen.Kernel.Skeleton
import proofs.«170517_j81965155877088_1_alg».proof.Proof.Gen.Kernel.Launch
import proofs.«170517_j81965155877088_1_alg».proof.Proof.Gen.Kernel.Points
import proofs.«170517_j81965155877088_1_alg».proof.Proof.Gen.Kernel.Frame
import proofs.«170517_j81965155877088_1_alg».proof.Proof.Gen.KernelIdeal
import proofs.«170517_j81965155877088_1_alg».proof.Proof.Gen.KernelIdeal.Skeleton
import proofs.«170517_j81965155877088_1_alg».proof.Proof.Gen.KernelIdeal.Launch
import proofs.«170517_j81965155877088_1_alg».proof.Proof.Gen.KernelIdeal.Points
import proofs.«170517_j81965155877088_1_alg».proof.Proof.Gen.KernelIdeal.Frame
import proofs.«170517_j81965155877088_1_alg».proof.Proof.Gen.ReferenceIdeal
import proofs.«170517_j81965155877088_1_alg».proof.Proof.Gen.ReferenceIdeal.Run
import proofs.«170517_j81965155877088_1_alg».proof.Proof.Gen.ReferenceIdeal.Read
import proofs.«170517_j81965155877088_1_alg».proof.Proof.Gen.Pre_finite_inputs
import proofs.«170517_j81965155877088_1_alg».proof.Proof.KernelRun
import proofs.«170517_j81965155877088_1_alg».proof.Proof.KernelFold
import proofs.«170517_j81965155877088_1_alg».proof.Proof.RefStages
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the idealized program. -/
theorem frame_ideal : Cert.frame_KernelIdeal (hKernelIdeal := Cert.KernelIdeal.Gen.facts) (hPre_finite_inputs := Cert.Pre_finite_inputs.Gen.facts) :=
  fun m ρ _ => Cert.KernelIdeal.Gen.frame m ρ

/-- The whole program runs and leaves its arguments unchanged: its run, with the result forgotten. -/
theorem frame_whole : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end at the same array: the tiled program at the composition
    of its stages (`Fold.result`), the whole program at its operations' composed term, whose two products and two closing
    stages are the same functions (`Stage.dense_first`, `Stage.dense_second`, `Stage.close`) around the same aggregation. -/
theorem same_result : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, (θ_run Cert.KernelIdeal.defs _ _).mono (fun _ h c => ⟨(h c).1.trans (Cert.KernelIdeal.Fold.result m ρ c), (h c).2⟩)
      (Cert.KernelIdeal.Whole.run (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  rw [Cert.ReferenceIdeal.Stage.dense_first, Cert.ReferenceIdeal.Stage.close _ _ Cert.KernelIdeal.Gen.shapeCasts_S64_S1x64,
    Cert.ReferenceIdeal.Stage.dense_second, Cert.ReferenceIdeal.Stage.close _ _ Cert.KernelIdeal.Gen.shapeCasts_S64_S1x64]
  rfl

theorem claim : Cert.Claim := ⟨Cert.Kernel.Gen.facts, Cert.KernelIdeal.Gen.facts, Cert.ReferenceIdeal.Gen.facts, Cert.Pre_finite_inputs.Gen.facts,
  frame_kernel, frame_ideal, frame_whole, trivial, same_result⟩

end Cert.Proof

end
